-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S32 : Shape := ⟨1, ![32]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S2097152x32 .f32) (main_arg1 : FVec F S2097152x32 .f32) (main_arg2 : FVec F S32 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S2097152x32 .f32 := Host.absf main_arg1
  let main_cst_0 : FVec F S_ .f32 := constant S_ .f32 0x7F800000#32
  let main_v5 : FVec F S2097152x32 .f32 := broadcastInDim S2097152x32 ![] bcast_S_S2097152x32 main_cst_0
  let main_v6 : IVec S2097152x32 1 := cmpf .olt main_v4 main_v5
  let main_c_1 : IVec S_ 1 := constantI S_ 1 1#1
  let main_v7 : IVec S_ 1 := (fun x v => Host.reduce IntOp.andi x v reducesTo_S2097152x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S2097152x32 : Shape := ⟨2, ![2097152, 32]⟩
abbrev S32 : Shape := ⟨1, ![32]⟩
abbrev S1x32 : Shape := ⟨2, ![1, 32]⟩
abbrev S1x1 : Shape := ⟨2, ![1, 1]⟩
abbrev S16384x32 : Shape := ⟨2, ![16384, 32]⟩
abbrev S16384 : Shape := ⟨1, ![16384]⟩
abbrev S16384x1 : Shape := ⟨2, ![16384, 1]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S2097152x32, .f32⟩
  | .hbm, ⟨1, _⟩ => ⟨S2097152x32, .f32⟩
  | .hbm, ⟨2, _⟩ => ⟨S32, .f32⟩
  | .hbm, ⟨3, _⟩ => ⟨S1x32, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S16384x32, .f32⟩
  | .local _ .vmem, ⟨1, _⟩ => ⟨S16384x32, .f32⟩
  | .local _ .vmem, ⟨2, _⟩ => ⟨S16384x32, .f32⟩
  | .local _ .vmem, ⟨3, _⟩ => ⟨S16384x32, .f32⟩
  | .local _ .vmem, ⟨4, _⟩ => ⟨S1x32, .f32⟩
  | .local _ .vmem, ⟨5, _⟩ => ⟨S1x1, .f32⟩
  | .local _ .vmem, ⟨6, _⟩ => ⟨S1x1, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v32 : BitVec 1 := Scalar.cmpi .eq arg0 c127_i32
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S32_S1x32 : S32.ShapeCasts S1x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x32_S16384x32_0_0 : ∀ a, (![0, 0] : Fin 2 → Nat) a + S16384x32.size a ≤ S16384x32.size a
  h_S16384x32 : 0 < S16384x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16384x32 : S1x32.Broadcasts S16384x32
  reduces_S16384x32_S16384 : S16384x32.Reduces [1] S16384
  shapeCasts_S16384_S16384x1 : S16384.ShapeCasts S16384x1
  broadcasts_S16384x1_S16384x32 : S16384x1.Broadcasts S16384x32
  reduces_S16384x1_S1 : S16384x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S2097152x32.size a
  hwx0_0 : ∀ i : grid0.Coords, EltTy.bits .f32 = 32 ∨ (Rect.block (s := S2097152x32) S16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S2097152x32.size a
  hwx0_1 : ∀ i : grid0.Coords, EltTy.bits .f32 = 32 ∨ (Rect.block (s := S2097152x32) S16384x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2097152x32 : Shape := ⟨2, ![2097152, 32]⟩
abbrev S32 : Shape := ⟨1, ![32]⟩
abbrev S_ : Shape := ⟨0, ![]⟩
abbrev S2097152 : Shape := ⟨1, ![2097152]⟩
abbrev S2097152x1 : Shape := ⟨2, ![2097152, 1]⟩
abbrev S1x32 : Shape := ⟨2, ![1, 32]⟩

abbrev nBuf : Space → Nat
  | .hbm => 29
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S2097152x32, .f32⟩
  | .hbm, ⟨2, _⟩ => ⟨S32, .f32⟩
  | .hbm, ⟨3, _⟩ => ⟨S_, .f32⟩
  | .hbm, ⟨4, _⟩ => ⟨S2097152, .f32⟩
  | .hbm, ⟨5, _⟩ => ⟨S_, .f32⟩
  | .hbm, ⟨6, _⟩ => ⟨S2097152, .f32⟩
  | .hbm, ⟨7, _⟩ => ⟨S2097152, .f32⟩
  | .hbm, ⟨8, _⟩ => ⟨S2097152x1, .f32⟩
  | .hbm, ⟨9, _⟩ => ⟨S2097152x32, .f32⟩
  | .hbm, ⟨10, _⟩ => ⟨S2097152x32, .f32⟩
  | .hbm, ⟨11, _⟩ => ⟨S2097152x32, .f32⟩
  | .hbm, ⟨12, _⟩ => ⟨S_, .f32⟩
  | .hbm, ⟨13, _⟩ => ⟨S2097152, .f32⟩
  | .hbm, ⟨14, _⟩ => ⟨S2097152x1, .f32⟩
  | .hbm, ⟨15, _⟩ => ⟨S2097152x1, .f32⟩
  | .hbm, ⟨16, _⟩ => ⟨S2097152x32, .f32⟩
  | .hbm, ⟨17, _⟩ => ⟨S2097152x32, .f32⟩
  | .hbm, ⟨18, _⟩ => ⟨S1x32, .f32⟩
  | .hbm, ⟨19, _⟩ => ⟨S2097152x32, .f32⟩
  | .hbm, ⟨20, _⟩ => ⟨S2097152x32, .f32⟩
  | .hbm, ⟨21, _⟩ => ⟨S2097152x32, .f32⟩
  | .hbm, ⟨22, _⟩ => ⟨S_, .f32⟩
  | .hbm, ⟨23, _⟩ => ⟨S2097152, .f32⟩
  | .hbm, ⟨24, _⟩ => ⟨S2097152, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩

abbrev nD : Nat := 1
abbrev τ : Topo := Topo.v7x

variable {F : FTy → Type} [FloatOps F]

class Facts₀ : Prop where
  reducesTo_S2097152x32_S2097152_d1 : S2097152x32.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x32_0_1 : S2097152x1.BroadcastsInDim S2097152x32 (![0, 1] : Fin 2 → Fin S2097152x32.rank)
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  reducesTo_S2097152_S_d0 : S2097152.ReducesTo [0] S_

variable [Facts₀]

class Facts : Prop extends Facts₀ where

variable [Facts]
-- ==== Proof.Pieces.lean ====
/-
  What one run of the body leaves in the running-total scratch and in the output's staging buffer, at any float values.

  At every grid point the body ends by storing, over the whole one-by-one scratch, the total it read there plus the
  block's loss (`k0_pay2` of the three input blocks and of the total read). At the first point the total read is the
  zero the body has just stored (`k0_pay1`); at the others it is what the point before left. At the last point the
  body also copies the scratch, just stored, into the output's staging buffer.
-/
import proofs.«145320_j52261162058056_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Xent

open Cert.KernelIdeal Cert.KernelIdeal.Gen

variable {F : FTy → Type} [FloatOps F]

theorem hz : (![0, 0] : Fin 2 → Nat) = fun _ => 0 := funext fun a => by fin_cases a <;> rfl

/-- A middle point leaves in the scratch the total it found plus its block's loss. -/
theorem scratch_B (c : Dev nD) (i : grid0.Coords) (a1 : Memref sig .tc .vmem S16384x32 .f32) (h1 : a1.IsWhole)
    (a2 : Memref sig .tc .vmem S16384x32 .f32) (h2 : a2.IsWhole) (a3 : Memref sig .tc .vmem S1x32 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i)
    (x0 x1 : Vec F S16384x32 .f32) (x2 : Vec F S1x32 .f32) (xs0 : Vec F S1x1 .f32) :
    sout0_B_0 c i a1 h1 a2 h2 a3 h3 a4 h4 a5 h5 hc0 hc1 x0 x1 x2 xs0 = k0_pay2 x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  rw [View.canon_unit_zero (S := S1x1) hz]
  simp only [View.readAt_eq_ld, h1.read_unread, h2.read_unread, h3.read_unread, h5.read_unread,
    View.ld_unit_zero (S := S16384x32) hz, View.ld_unit_zero (S := S1x32) hz, View.ld_unit_zero (S := S1x1) hz]

/-- The first point leaves in the scratch the zero it has just stored plus its block's loss. -/
theorem scratch_A (c : Dev nD) (i : grid0.Coords) (a1 : Memref sig .tc .vmem S16384x32 .f32) (h1 : a1.IsWhole)
    (a2 : Memref sig .tc .vmem S16384x32 .f32) (h2 : a2.IsWhole) (a3 : Memref sig .tc .vmem S1x32 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i)
    (x0 x1 : Vec F S16384x32 .f32) (x2 : Vec F S1x32 .f32) :
    sout0_A_0 c i a1 h1 a2 h2 a3 h3 a4 h4 a5 h5 hc0 hc1 x0 x1 x2 = k0_pay2 x0 x1 x2 (k0_pay1 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S16384x32) hz, View.ld_unit_zero (S := S1x32) hz]

/-- The last point leaves in the scratch the total it found plus its block's loss, -/
theorem scratch_C (c : Dev nD) (i : grid0.Coords) (a1 : Memref sig .tc .vmem S16384x32 .f32) (h1 : a1.IsWhole)
    (a2 : Memref sig .tc .vmem S16384x32 .f32) (h2 : a2.IsWhole) (a3 : Memref sig .tc .vmem S1x32 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 x1 : Vec F S16384x32 .f32) (x2 : Vec F S1x32 .f32) (xs0 : Vec F S1x1 .f32) :
    sout0_C_0 c i a1 h1 a2 h2 a3 h3 a4 h4 a5 h5 hc0 hc1 x0 x1 x2 xs0 = k0_pay2 x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero (S := S1x1) hz]
  simp only [View.readAt_eq_ld, h1.read_unread, h2.read_unread, h3.read_unread, h5.read_unread,
    View.ld_unit_zero (S := S16384x32) hz, View.ld_unit_zero (S := S1x32) hz, View.ld_unit_zero (S := S1x1) hz]

/-- and copies that same value into the output's staging buffer. -/
theorem out_C (c : Dev nD) (i : grid0.Coords) (a1 : Memref sig .tc .vmem S16384x32 .f32) (h1 : a1.IsWhole)
    (a2 : Memref sig .tc .vmem S16384x32 .f32) (h2 : a2.IsWhole) (a3 : Memref sig .tc .vmem S1x32 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 x1 : Vec F S16384x32 .f32) (x2 : Vec F S1x32 .f32) (xs0 : Vec F S1x1 .f32) :
    out0_C_3 c i a1 h1 a2 h2 a3 h3 a4 h4 a5 h5 hc0 hc1 x0 x1 x2 xs0 = k0_pay2 x0 x1 x2 xs0 := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero (S := S1x1) hz, View.readCov_unit_zero (S := S1x1) _ hz]
  simp only [View.readAt_eq_ld, h1.read_unread, h2.read_unread, h3.read_unread, h5.read_unread,
    View.ld_unit_zero (S := S16384x32) hz, View.ld_unit_zero (S := S1x32) hz, View.ld_unit_zero (S := S1x1) hz]

end Cert.KernelIdeal.Xent

end
-- ==== Proof.Total.lean ====
/-
  The running total across the grid, and what the program's result holds, at any float values.

  The scratch starts at zero at the first grid point and every point adds its block's loss to it, so after point `n`
  it holds the losses of blocks `0 … n` added in that order (`total`). The last point copies the scratch into the
  one-by-one output block, which is the whole output array and is written back there only. The lines after the
  kernel read that one entry as a scalar and divide it by the number of rows.
-/
import proofs.«145320_j52261162058056_2_alg».proof.Proof.Pieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Xent

open Cert.KernelIdeal Cert.KernelIdeal.Gen

variable {F : FTy → Type} [FloatOps F]
variable (m : (ℓ : Loc nD τ sig) → Buf (Elt F) ℓ) (ρ : Dev nD → PrngReg)

/-- The scratch after point `n`: zero plus the first block's loss, then each later block's loss added in turn. -/
def total (c : Dev nD) : (n : ℕ) → n < cfg0.N → Vec F S1x1 .f32
  | 0, h => k0_pay2 (iblk m c 0 ⟨0, h⟩) (iblk m c 1 ⟨0, h⟩) (iblk m c 2 ⟨0, h⟩) (k0_pay1 (F := F))
  | n + 1, h => k0_pay2 (iblk m c 0 ⟨n + 1, h⟩) (iblk m c 1 ⟨n + 1, h⟩) (iblk m c 2 ⟨n + 1, h⟩)
      (total c n (Nat.lt_of_succ_lt h))

/-- What the scratch holds after point `n` is that running total: by induction on the point. -/
theorem scratch_eq (c : Dev nD) : ∀ (n : ℕ) (h : n < cfg0.N), (outsAt0 m c n h).2 = total m c n h
  | 0, h => by
    refine (congrArg Prod.snd (outsAt0_A m c ⟨0, h⟩ (Nat.zero_mod _) (by (try dsimp only); omega))).trans ?_
    dsimp only
    exact scratch_A ..
  | n + 1, h => by
    have hN : cfg0.N = 128 := N_0
    have h0 : ¬(⟨n + 1, h⟩ : Fin cfg0.N).val % 128 = 0 := by dsimp only; omega
    by_cases h1 : (⟨n + 1, h⟩ : Fin cfg0.N).val % 128 = 127
    · refine (congrArg Prod.snd (outsAt0_C m c ⟨n + 1, h⟩ h0 h1)).trans ?_
      dsimp only
      rw [scratch_C]
      show k0_pay2 _ _ _ (outsAt0 m c n _).2 = k0_pay2 _ _ _ (total m c n _)
      rw [scratch_eq c n]
    · refine (congrArg Prod.snd (outsAt0_B m c ⟨n + 1, h⟩ h0 h1)).trans ?_
      dsimp only
      rw [scratch_B]
      show k0_pay2 _ _ _ (outsAt0 m c n _).2 = k0_pay2 _ _ _ (total m c n _)
      rw [scratch_eq c n]

/-- At the last point the output's staging buffer holds the same running total. -/
theorem out_eq (c : Dev nD) (n : ℕ) (h : n + 1 < cfg0.N) (h1 : (n + 1) % 128 = 127) :
    (outsAt0 m c (n + 1) h).1 = total m c (n + 1) h := by
  have hN : cfg0.N = 128 := N_0
  have h0 : ¬(⟨n + 1, h⟩ : Fin cfg0.N).val % 128 = 0 := by dsimp only; omega
  refine (congrArg Prod.fst (outsAt0_C m c ⟨n + 1, h⟩ h0 h1)).trans ?_
  dsimp only
  rw [out_C]
  show k0_pay2 _ _ _ (outsAt0 m c n _).2 = k0_pay2 _ _ _ (total m c n _)
  rw [scratch_eq m c n]

/-- The last grid point. -/
abbrev tLast : Fin cfg0.N := ⟨126 + 1, by rw [show cfg0.N = 128 from N_0]; decide⟩

/-- The output array after the kernel: the running total after the last point. -/
abbrev result (c : Dev nD) : Buf (Elt F) ((c : Thread nD τ).loc main_v1) := total m c (126 + 1) tLast.isLt

/-- The one write-back, at the last point, writes it: the one-by-one block at zero offsets is the whole array. -/
theorem flushed_eq (c : Dev nD) (t : Fin cfg0.N) (hf : (cfg0.win 3).flush t = true) :
    (dats m 0 c).flushed 3 t = ((cfg0.win 3).blk t).view.read (Elt F) (result m c) := by
  have hN : cfg0.N = 128 := N_0
  have h127 : t.val = 126 + 1 := by have := (flush0_3 t).mp hf; have := t.isLt; omega
  obtain rfl : t = tLast := Fin.ext h127
  show (cfg0.win 3).cut (grid0.coords tLast) ((dats m 0 c).after 3 tLast) = _
  rw [after0_3, out_eq m c 126 tLast.isLt (by decide)]
  have hz' : (fun a => win0_3.index tLast a * main_v1.ty.shape.size a) = fun _ => 0 :=
    funext fun a => by fin_cases a <;> decide +kernel
  exact (Memref.read_access_unit_zero (Elt F) main_v1 hz' (fun a => by rw [congrFun hz' a]; simp) (result m c)).symm

/-- So the output array ends holding the running total after the last point. -/
theorem final_o (c : Dev nD) : (dats m 0 c).arrAt 3 cfg0.N = result m c :=
  (dats m 0 c).arrAt_eq_of_cover 3 (result m c) (flushed_eq m c) fun i =>
    ⟨tLast, (flush0_3 tLast).mpr (by decide), by
      show i ∈ ((View.whole main_v1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The program's result: the output array's one entry as a scalar, divided by the number of rows. -/
def finalVal (c : Dev nD) : Buf (Elt F) ((c : Thread nD τ).loc main_v3) :=
  Host.divf (shapeCast S_ (result m c) shapeCasts_S1x1_S_) (constant S_ .f32 0x4A000000#32)

/-- The lines after the kernel leave that in the result buffer. -/
theorem tail_eq (c : Dev nD) :
    Pipeline.afterTail₀ cfgs (dats m) 0 (V0 m) [hostOps1] c main_v3 = finalVal m c := by
  unfold Pipeline.afterTail₀ finalVal
  show StableHlo.after hostOps1 _ (Proc.devRef .tc main_v3) = _
  after_results
  have e : Pipeline.withArrays (cfgs 0).spec c (V0 m c) (fun w => (dats m 0 c).arrAt w (cfgs 0).N) (Proc.devRef .tc main_v1)
      = result m c :=
    (Pipeline.withArrays_arr spec0 launch0.win.arr_inj c _ _ 3).trans (final_o m c)
  rw [e]
  rfl

end Cert.KernelIdeal.Xent

end
-- ==== Proof.RowAlgebra.lean ====
/-
  One row of a soft-label cross entropy, on the extended reals.

  For a row of logits `x`, soft labels `t` and class weights `w`, with `M` the row's largest logit and
  `lse = log (∑ₖ exp (xₖ - M))`, the row's loss can be written two ways:

    (M + lse) · ∑ₖ tₖ wₖ  -  ∑ₖ tₖ wₖ xₖ            (logsumexp times the weighted label mass, minus the weighted dot)
    -∑ₖ tₖ wₖ ((xₖ - M) - lse)                       (minus the weighted sum of the log-softmax)

  They agree when every entry is a real number: the second is the first with the product distributed over the sum,
  and distributivity is a law of the reals (on the extended reals it fails at the infinities). The sum of the
  exponentials is then a positive real, so its logarithm is a real too.
-/
import Idealize.ShloMosaic.PureOps.Ideal
import Idealize.ShloMosaic.PureOps.Ideal.Laws

noncomputable section

namespace Cert.Xent

open Idealize.ShloMosaic

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern of minus infinity denotes the bottom of the extended reals. -/
theorem ofBits_neg_inf : Ideal.ofBits .f32 0xFF800000#32 = ⊥ := by simp [Ideal.ofBits, Ideal.ieee]

/-- The f32 pattern of plus infinity denotes the top of the extended reals. -/
theorem ofBits_pos_inf : Ideal.ofBits .f32 0x7F800000#32 = ⊤ := by simp [Ideal.ofBits, Ideal.ieee]

variable {ι : Type} [Fintype ι]

/-- A row's largest entry, as a fold of `max` from `b`. -/
def rowMax (b : EReal) (x : ι → EReal) : EReal := (Finset.univ : Finset ι).fold max b x

/-- The logarithm of the row's sum of exponentials, shifted by `M`. -/
def lse (M : EReal) (x : ι → EReal) : EReal := Ideal.log (∑ k, Ideal.exp (x k - M))

/-- The row's loss as logsumexp times the weighted label mass, minus the weighted dot product. -/
def rowLossK (M : EReal) (x t w : ι → EReal) : EReal :=
  (M + lse M x) * (∑ k, t k * w k) - ∑ k, t k * w k * x k

/-- The row's loss as minus the weighted sum of the log-softmax. -/
def rowLossR (M : EReal) (x t w : ι → EReal) : EReal :=
  -(∑ k, t k * w k * ((x k - M) - lse M x))

/-- The largest of finitely many reals (at least one), folded from minus infinity, is a real. -/
theorem rowMax_real [Nonempty ι] (a : ι → ℝ) : ∃ μ : ℝ, rowMax ⊥ (fun k => (a k : EReal)) = (μ : EReal) := by
  have htop : rowMax ⊥ (fun k => (a k : EReal)) ≠ ⊤ := by
    refine ne_of_lt ?_
    unfold rowMax
    rw [Finset.fold_max_lt]
    exact ⟨bot_lt_top, fun k _ => EReal.coe_lt_top _⟩
  have hbot : rowMax ⊥ (fun k => (a k : EReal)) ≠ ⊥ := by
    refine ne_of_gt ?_
    unfold rowMax
    rw [Finset.lt_fold_max]
    exact Or.inr ⟨Classical.arbitrary ι, Finset.mem_univ _, EReal.bot_lt_coe _⟩
  exact ⟨_, (EReal.coe_toReal htop hbot).symm⟩

/-- On real entries the two forms of a row's loss agree. -/
theorem rowLoss_eq [Nonempty ι] (μ : ℝ) (a τ ω : ι → ℝ) :
    rowLossK (μ : EReal) (fun k => (a k : EReal)) (fun k => (τ k : EReal)) (fun k => (ω k : EReal))
      = rowLossR (μ : EReal) (fun k => (a k : EReal)) (fun k => (τ k : EReal)) (fun k => (ω k : EReal)) := by
  have hS : 0 < ∑ k, Real.exp (a k - μ) := Finset.sum_pos (fun k _ => Real.exp_pos _) Finset.univ_nonempty
  have hl : lse (μ : EReal) (fun k => (a k : EReal)) = ((Real.log (∑ k, Real.exp (a k - μ)) : ℝ) : EReal) := by
    unfold lse
    simp only [← EReal.coe_sub, Ideal.exp_coe, ← coe_sum]
    rw [Ideal.log_coe, if_neg (not_le.mpr hS)]
  unfold rowLossK rowLossR
  rw [hl]
  simp only [← EReal.coe_mul, ← EReal.coe_sub, ← EReal.coe_add, ← coe_sum, ← EReal.coe_neg]
  refine congrArg _ ?_
  have hk : ∀ k, τ k * ω k * ((a k - μ) - Real.log (∑ k, Real.exp (a k - μ)))
      = τ k * ω k * a k - (μ + Real.log (∑ k, Real.exp (a k - μ))) * (τ k * ω k) := fun k => by ring
  simp only [hk, Finset.sum_sub_distrib, ← Finset.mul_sum]
  ring

end Cert.Xent

end
-- ==== Proof.Spec.lean ====
/-
  The mean soft-label cross entropy of 2097152 rows of 32 classes, as one function of the three argument arrays.

  Row `n`'s loss is `rowLossK` (equivalently, on real entries, `rowLossR`) of the row's 32 logits, its 32 soft labels
  and the 32 class weights, with `M` the row's largest logit. The result is the sum of the 2097152 row losses divided by
  the f32 constant `2²¹` (the same bit pattern on both sides: it is never evaluated). Summing the rows block by block
  (128 blocks of 16384 consecutive rows, each block's rows first) is the same sum: addition of extended reals is
  commutative and associative.
-/
import proofs.«145320_j52261162058056_2_alg».proof.Proof.RowAlgebra
import Idealize.ShloMosaic.PureOps.Ideal
import Idealize.ShloMosaic.Lib.ValueIdx

noncomputable section

namespace Cert.Xent

open Idealize.ShloMosaic Idealize.ShloMosaic.ValueIdx

/-- Row `n`'s loss, logsumexp form. -/
def rowK (X T : (⟨2, ![2097152, 32]⟩ : Shape).Idx → EReal) (W : (⟨1, ![32]⟩ : Shape).Idx → EReal) (n : Fin 2097152) : EReal :=
  rowLossK (rowMax (Ideal.ofBits .f32 0xFF800000#32) (fun k : Fin 32 => X (ix2 n k)))
    (fun k : Fin 32 => X (ix2 n k)) (fun k : Fin 32 => T (ix2 n k)) (fun k : Fin 32 => W (ix1 k))

/-- Row `n`'s loss, log-softmax form. -/
def rowR (X T : (⟨2, ![2097152, 32]⟩ : Shape).Idx → EReal) (W : (⟨1, ![32]⟩ : Shape).Idx → EReal) (n : Fin 2097152) : EReal :=
  rowLossR (rowMax (Ideal.ofBits .f32 0xFF800000#32) (fun k : Fin 32 => X (ix2 n k)))
    (fun k : Fin 32 => X (ix2 n k)) (fun k : Fin 32 => T (ix2 n k)) (fun k : Fin 32 => W (ix1 k))

/-- A function of the rows read at a natural number (zero past the last row). -/
def rowAt (f : Fin 2097152 → EReal) (n : ℕ) : EReal := if h : n < 2097152 then f ⟨n, h⟩ else 0

/-- A total divided by the number of rows, as a scalar array. -/
def meanOf (s : EReal) : (⟨0, ![]⟩ : Shape).Idx → EReal := fun _ => Ideal.div s (Ideal.ofBits .f32 0x4A000000#32)

/-- Consecutive blocks of `R` terms, summed block by block, are the first `B * R` terms summed. -/
theorem sum_blocks (f : ℕ → EReal) (R : ℕ) : ∀ B : ℕ,
    ∑ b ∈ Finset.range B, ∑ r ∈ Finset.range R, f (R * b + r) = ∑ n ∈ Finset.range (B * R), f n
  | 0 => by simp
  | B + 1 => by
    rw [Finset.sum_range_succ, sum_blocks f R B, Nat.succ_mul, Finset.sum_range_add, Nat.mul_comm R B]

/-- The rows summed block by block (128 blocks of 16384 rows) are the rows summed. -/
theorem sum_rows_blocks (g : Fin 2097152 → EReal) :
    ∑ b ∈ Finset.range 128, ∑ r : Fin 16384, rowAt g (16384 * b + r.val) = ∑ n : Fin 2097152, g n := by
  have e : ∀ b, ∑ r : Fin 16384, rowAt g (16384 * b + r.val) = ∑ r ∈ Finset.range 16384, rowAt g (16384 * b + r) :=
    fun b => (Finset.sum_range fun r => rowAt g (16384 * b + r)).symm
  simp only [e]
  rw [sum_blocks (rowAt g) 16384 128, show 128 * 16384 = 2097152 from by norm_num, Finset.sum_range]
  refine Finset.sum_congr rfl fun n _ => ?_
  unfold rowAt
  rw [dif_pos n.isLt]

/-- On real entries the two forms of every row's loss agree. -/
theorem rowK_eq_rowR (X T : (⟨2, ![2097152, 32]⟩ : Shape).Idx → EReal) (W : (⟨1, ![32]⟩ : Shape).Idx → EReal)
    (hX : ∀ i, ∃ r : ℝ, X i = (r : EReal)) (hT : ∀ i, ∃ r : ℝ, T i = (r : EReal)) (hW : ∀ i, ∃ r : ℝ, W i = (r : EReal))
    (n : Fin 2097152) : rowK X T W n = rowR X T W n := by
  choose a ha using hX
  choose τ hτ using hT
  choose ω hω using hW
  unfold rowK rowR
  simp only [ha, hτ, hω, ofBits_neg_inf]
  obtain ⟨μ, hμ⟩ := rowMax_real (fun k : Fin 32 => a (ix2 n k))
  rw [hμ]
  exact rowLoss_eq μ _ _ _

end Cert.Xent

end
-- ==== Proof.Payload.lean ====
/-
  What one grid point adds to the running total, read at the ideal values.

  The body takes a block of 16384 rows of logits `x`, of soft labels `t`, and the one row of class weights `w`. For
  each row it forms the weighted label mass `∑ₖ tₖ wₖ`, the weighted dot product `∑ₖ tₖ wₖ xₖ`, the row's largest
  logit `M` and `lse = log ∑ₖ exp (xₖ - M)`, and the row's loss `(M + lse) · ∑ₖ tₖ wₖ - ∑ₖ tₖ wₖ xₖ`; it sums the
  16384 losses and adds the sum to the total it found. Each lane reduction is a plain finite sum (or fold of `max`)
  over the 32 columns, each keepdims cast and broadcast only moves an index.
-/
import proofs.«145320_j52261162058056_2_alg».proof.Proof.Gen.KernelIdeal.Skeleton
import proofs.«145320_j52261162058056_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Xent

open Idealize.ShloMosaic Idealize.ShloMosaic.ValueIdx Cert.KernelIdeal Cert.KernelIdeal.Gen Cert.Xent

/-- The labels times the class weights, the one row of weights repeated down the block. -/
def tw (v4 : FVec Ideal S16384x32 .f32) (v5 : FVec Ideal S1x32 .f32) : FVec Ideal S16384x32 .f32 :=
  mulf v4 (broadcastTo S16384x32 (shapeCast S1x32 v5 shapeCasts_S1x32_S1x32) broadcasts_S1x32_S16384x32)

/-- The sum of each row's 32 entries, kept as a column. -/
def colSum (v : FVec Ideal S16384x32 .f32) : FVec Ideal S16384x1 .f32 :=
  shapeCast S16384x1 (multiReduction .add [1] S16384 v 0x00000000#32 reduces_S16384x32_S16384 (.inl rfl) rfl)
    shapeCasts_S16384_S16384x1

/-- The largest of each row's 32 entries, kept as a column. -/
def colMax (v : FVec Ideal S16384x32 .f32) : FVec Ideal S16384x1 .f32 :=
  shapeCast S16384x1 (multiReduction .maximumf [1] S16384 v 0xFF800000#32 reduces_S16384x32_S16384 (.inl rfl) rfl)
    shapeCasts_S16384_S16384x1

/-- Each row's loss, as a column. -/
def perRow (v3 v4 : FVec Ideal S16384x32 .f32) (v5 : FVec Ideal S1x32 .f32) : FVec Ideal S16384x1 .f32 :=
  subf (mulf (addf (colMax v3)
      (log (colSum (exp (subf v3 (broadcastTo S16384x32 (colMax v3) broadcasts_S16384x1_S16384x32))))))
      (colSum (tw v4 v5)))
    (colSum (mulf (tw v4 v5) v3))

/-- The block's 16384 losses summed, as a one-by-one array. -/
def blockLoss (v3 v4 : FVec Ideal S16384x32 .f32) (v5 : FVec Ideal S1x32 .f32) : FVec Ideal S1x1 .f32 :=
  shapeCast S1x1 (multiReduction .add [0] S1 (perRow v3 v4 v5) 0x00000000#32 reduces_S16384x1_S1 (.inl rfl) rfl)
    shapeCasts_S1_S1x1

/-- The body's stored value is the total it found plus the block's loss. -/
theorem pay2_eq (v3 v4 : FVec Ideal S16384x32 .f32) (v5 : FVec Ideal S1x32 .f32) (v27 : FVec Ideal S1x1 .f32) :
    k0_pay2 (F := Ideal) v3 v4 v5 v27 = addf v27 (blockLoss v3 v4 v5) :=
  shapeCast_self _ _

/-- A sum over the columns, kept as a column, read at row `r`. -/
theorem colSum_apply (v : FVec Ideal S16384x32 .f32) (r : Fin 16384) (u : Fin 1) :
    colSum v (ix2 r u) = ∑ k : Fin 32, v (ix2 r k) := by
  unfold colSum
  refine (shapeCast_apply _ shapeCasts_S16384_S16384x1 (ix2 r u) (ix1 r) ?_).trans ?_
  · rw [Shape.rowMajor_val_two, Shape.rowMajor_val_one]
    show r.val = r.val * 1 + u.val
    omega
  · refine (Ideal.multiReduction_add_single v 0x00000000#32 reduces_S16384x32_S16384 (.inl rfl) rfl (ix1 r)).trans ?_
    refine Finset.sum_congr rfl fun k _ => congrArg v ?_
    funext a
    apply Fin.ext
    match a with
    | ⟨0, _⟩ => rfl
    | ⟨1, _⟩ => rfl

/-- A maximum over the columns, kept as a column, read at row `r`. -/
theorem colMax_apply (v : FVec Ideal S16384x32 .f32) (r : Fin 16384) (u : Fin 1) :
    colMax v (ix2 r u) = rowMax (Ideal.ofBits .f32 0xFF800000#32) (fun k : Fin 32 => v (ix2 r k)) := by
  unfold colMax
  refine (shapeCast_apply _ shapeCasts_S16384_S16384x1 (ix2 r u) (ix1 r) ?_).trans ?_
  · rw [Shape.rowMajor_val_two, Shape.rowMajor_val_one]
    show r.val = r.val * 1 + u.val
    omega
  · refine (Ideal.multiReduction_maximumf_single v 0xFF800000#32 reduces_S16384x32_S16384 (.inl rfl) rfl (ix1 r)).trans ?_
    unfold rowMax
    refine congrArg (fun f : Fin 32 → EReal => (Finset.univ : Finset (Fin 32)).fold max (Ideal.ofBits .f32 0xFF800000#32) f) ?_
    funext k
    refine congrArg v ?_
    funext a
    apply Fin.ext
    match a with
    | ⟨0, _⟩ => rfl
    | ⟨1, _⟩ => rfl

/-- A column repeated across the 32 lanes, read at `(r, k)`. -/
theorem spread_apply (v : FVec Ideal S16384x1 .f32) (r : Fin 16384) (k : Fin 32) :
    broadcastTo S16384x32 v broadcasts_S16384x1_S16384x32 (ix2 r k) = v (ix2 r (0 : Fin 1)) := by
  refine broadcastTo_apply v broadcasts_S16384x1_S16384x32 (ix2 r k) (ix2 r (0 : Fin 1)) fun ax => ?_
  match ax with
  | ⟨0, _⟩ => rfl
  | ⟨1, _⟩ => rfl

/-- The weighted labels at `(r, k)`. -/
theorem tw_apply (v4 : FVec Ideal S16384x32 .f32) (v5 : FVec Ideal S1x32 .f32) (r : Fin 16384) (k : Fin 32) :
    tw v4 v5 (ix2 r k) = v4 (ix2 r k) * v5 (ix2 (0 : Fin 1) k) := by
  unfold tw
  rw [shapeCast_self]
  exact congrArg (v4 (ix2 r k) * ·) (broadcastTo_1b_ab_apply v5 broadcasts_S1x32_S16384x32 r k)

/-- The elementwise logarithm and exponential read at an index. -/
theorem vlog_apply {s : Shape} (v : FVec Ideal s .f32) (i : s.Idx) : log v i = Ideal.log (v i) := rfl
theorem vexp_apply {s : Shape} (v : FVec Ideal s .f32) (i : s.Idx) : exp v i = Ideal.exp (v i) := rfl

/-- A row's loss in the block is the row's loss of its 32 logits, labels and weights. -/
theorem perRow_apply (v3 v4 : FVec Ideal S16384x32 .f32) (v5 : FVec Ideal S1x32 .f32) (r : Fin 16384) (u : Fin 1) :
    perRow v3 v4 v5 (ix2 r u)
      = rowLossK (rowMax (Ideal.ofBits .f32 0xFF800000#32) (fun k : Fin 32 => v3 (ix2 r k)))
          (fun k : Fin 32 => v3 (ix2 r k)) (fun k : Fin 32 => v4 (ix2 r k)) (fun k : Fin 32 => v5 (ix2 (0 : Fin 1) k)) := by
  unfold perRow rowLossK lse
  rw [subf_apply, mulf_apply, addf_apply, vlog_apply, colSum_apply, colSum_apply, colSum_apply, colMax_apply]
  refine congrArg₂ (· - ·) (congrArg₂ (· * ·) (congrArg (_ + Ideal.log ·) ?_) ?_) ?_
  · refine Finset.sum_congr rfl fun k _ => ?_
    rw [vexp_apply, subf_apply, spread_apply, colMax_apply]
  · exact Finset.sum_congr rfl fun k _ => tw_apply v4 v5 r k
  · refine Finset.sum_congr rfl fun k _ => ?_
    rw [mulf_apply, tw_apply]

/-- The block's loss is the sum of its rows' losses. -/
theorem blockLoss_apply (v3 v4 : FVec Ideal S16384x32 .f32) (v5 : FVec Ideal S1x32 .f32) (p q : Fin 1) :
    blockLoss v3 v4 v5 (ix2 p q) = ∑ r : Fin 16384, perRow v3 v4 v5 (ix2 r q) := by
  unfold blockLoss
  refine (shapeCast_a_1a_apply _ shapeCasts_S1_S1x1 p q).trans ?_
  refine (Ideal.multiReduction_add_single (perRow v3 v4 v5) 0x00000000#32 reduces_S16384x1_S1 (.inl rfl) rfl (ix1 q)).trans ?_
  refine Finset.sum_congr rfl fun k _ => congrArg (perRow v3 v4 v5) ?_
  funext a
  apply Fin.ext
  match a with
  | ⟨0, _⟩ => rfl
  | ⟨1, _⟩ => rfl

/-- The body's zero, stored at the first point, is zero. -/
theorem pay1_apply (i : S1x1.Idx) : k0_pay1 (F := Ideal) i = 0 := by
  unfold k0_pay1
  rw [shapeCast_self]
  exact Ideal.ofBits_zero_f32

/-- A block whose rows are rows `16384 b + r` of the arrays `X`, `T` and whose weights are `W`: its loss is the sum of
    those rows' losses. -/
theorem blockLoss_rows (X T : (⟨2, ![2097152, 32]⟩ : Shape).Idx → EReal) (W : (⟨1, ![32]⟩ : Shape).Idx → EReal)
    (v3 v4 : FVec Ideal S16384x32 .f32) (v5 : FVec Ideal S1x32 .f32) (b : ℕ) (hb : b < 128)
    (h3 : ∀ (r : Fin 16384) (k : Fin 32) (hn : 16384 * b + r.val < 2097152), v3 (ix2 r k) = X (ix2 ⟨16384 * b + r.val, hn⟩ k))
    (h4 : ∀ (r : Fin 16384) (k : Fin 32) (hn : 16384 * b + r.val < 2097152), v4 (ix2 r k) = T (ix2 ⟨16384 * b + r.val, hn⟩ k))
    (h5 : ∀ k : Fin 32, v5 (ix2 (0 : Fin 1) k) = W (ix1 k)) (p q : Fin 1) :
    blockLoss v3 v4 v5 (ix2 p q) = ∑ r : Fin 16384, rowAt (rowK X T W) (16384 * b + r.val) := by
  rw [blockLoss_apply]
  refine Finset.sum_congr rfl fun r _ => ?_
  have hn : 16384 * b + r.val < 2097152 := by have := r.isLt; omega
  rw [perRow_apply]
  unfold rowAt
  rw [dif_pos hn]
  unfold rowK
  simp only [fun k => h3 r k hn, fun k => h4 r k hn, h5]

end Cert.KernelIdeal.Xent

end
-- ==== Proof.KernelValue.lean ====
/-
  The kernel's result at the ideal values, as a function of the three argument arrays.

  Grid point `b` reads rows `16384 b … 16384 b + 16383` of the logits and of the labels (its blocks of the two big
  arrays) and the one row of weights (the weight vector, reshaped to one row before the kernel). So the running total
  after point `n` is the sum of the losses of the first `16384 (n + 1)` rows, block by block, and the program's result
  is the sum of all 2097152 row losses divided by the number of rows.
-/
import proofs.«145320_j52261162058056_2_alg».proof.Proof.Total
import proofs.«145320_j52261162058056_2_alg».proof.Proof.Payload

noncomputable section

open Idealize.ShloMosaic Idealize.ShloMosaic.TcCoe Idealize.SL.Sem
open Idealize.ShloMosaic.Pipeline (Dat)

namespace Cert.KernelIdeal.Xent

open Cert.KernelIdeal Cert.KernelIdeal.Gen Cert.Xent Idealize.ShloMosaic.ValueIdx

variable (m : (ℓ : Loc nD τ sig) → Buf (Elt Ideal) ℓ) (ρ : Dev nD → PrngReg)

/-- Where each window's block sits at point `t`: block `t` of the rows for the two big arrays, the one block for
    the weights — decided over the grid. -/
theorem idx_facts : ∀ t : Fin cfg0.N,
    (win0_0.index t 0 = t.val ∧ win0_0.index t 1 = 0) ∧ (win0_1.index t 0 = t.val ∧ win0_1.index t 1 = 0)
      ∧ (win0_2.index t 0 = 0 ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = 0 ∧ win0_2.index t 1 = 0))

/-- Point `t`'s block of the logits: rows `16384 t + r`. -/
theorem iblk0_apply (c : Dev nD) (t : Fin cfg0.N) (r : Fin 16384) (k : Fin 32) (hn : 16384 * t.val + r.val < 2097152) :
    (iblk m c 0 t : FVec Ideal S16384x32 .f32) (ix2 r k)
      = m ((c : Thread nD τ).loc main_arg0) (ix2 ⟨16384 * t.val + r.val, hn⟩ k) := by
  have hi := (idx_facts t).1
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 16384 + 1 * r.val = 16384 * t.val + r.val; rw [hi.1]; omega
  | ⟨1, _⟩ => show win0_0.index t 1 * 32 + 1 * k.val = k.val; rw [hi.2]; omega

/-- Point `t`'s block of the labels: rows `16384 t + r`. -/
theorem iblk1_apply (c : Dev nD) (t : Fin cfg0.N) (r : Fin 16384) (k : Fin 32) (hn : 16384 * t.val + r.val < 2097152) :
    (iblk m c 1 t : FVec Ideal S16384x32 .f32) (ix2 r k)
      = m ((c : Thread nD τ).loc main_arg1) (ix2 ⟨16384 * t.val + r.val, hn⟩ k) := by
  have hi := (idx_facts t).2.1
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 16384 + 1 * r.val = 16384 * t.val + r.val; rw [hi.1]; omega
  | ⟨1, _⟩ => show win0_1.index t 1 * 32 + 1 * k.val = k.val; rw [hi.2]; omega

/-- The one-row array the kernel's third window stages is the weight vector, reshaped before the kernel. -/
theorem V_weights (c : Dev nD) :
    (V m c main_v0 : S1x32.Idx → EReal) = shapeCast S1x32 (m ((c : Thread nD τ).loc main_arg2)) shapeCasts_S32_S1x32 := by
  show StableHlo.after hostOps0 (fun b => m (c, b)) (Proc.devRef .tc main_v0) = _
  after_results
  rfl

/-- Every point's block of the weights is the weight vector. -/
theorem iblk2_apply (c : Dev nD) (t : Fin cfg0.N) (u : Fin 1) (k : Fin 32) :
    (iblk m c 2 t : FVec Ideal S1x32 .f32) (ix2 u k) = m ((c : Thread nD τ).loc main_arg2) (ix1 k) := by
  have hi := (idx_facts t).2.2
  unfold iblk
  rw [View.read_apply]
  show V m c main_v0 _ = _
  rw [V_weights]
  refine Eq.trans (congrArg (shapeCast S1x32 (m ((c : Thread nD τ).loc main_arg2)) shapeCasts_S32_S1x32) ?_)
    (shapeCast_a_1a_apply _ shapeCasts_S32_S1x32 u k)
  funext a
  apply Fin.ext
  match a with
  | ⟨0, _⟩ => show win0_2.index t 0 * 1 + 1 * u.val = u.val; rw [hi.1]; omega
  | ⟨1, _⟩ => show win0_2.index t 1 * 32 + 1 * k.val = k.val; rw [hi.2]; omega

/-- The running total after point `n`: the losses of the first `n + 1` blocks of rows. -/
theorem total_apply (c : Dev nD) : ∀ (n : ℕ) (h : n < cfg0.N) (p q : Fin 1),
    total m c n h (ix2 p q)
      = ∑ b ∈ Finset.range (n + 1), ∑ r : Fin 16384,
          rowAt (rowK (m ((c : Thread nD τ).loc main_arg0)) (m ((c : Thread nD τ).loc main_arg1))
            (m ((c : Thread nD τ).loc main_arg2))) (16384 * b + r.val)
  | 0, h, p, q => by
    show k0_pay2 (F := Ideal) _ _ _ _ (ix2 p q) = _
    rw [pay2_eq, addf_apply, pay1_apply, zero_add, Finset.sum_range_one]
    exact blockLoss_rows _ _ _ _ _ _ 0 (by omega) (fun r k hn => iblk0_apply m c ⟨0, h⟩ r k hn)
      (fun r k hn => iblk1_apply m c ⟨0, h⟩ r k hn) (fun k => iblk2_apply m c ⟨0, h⟩ 0 k) p q
  | n + 1, h, p, q => by
    have hN : cfg0.N = 128 := N_0
    show k0_pay2 (F := Ideal) _ _ _ (total m c n _) (ix2 p q) = _
    rw [pay2_eq, addf_apply, total_apply c n _ p q, Finset.sum_range_succ _ (n + 1)]
    refine congrArg (_ + ·) ?_
    exact blockLoss_rows _ _ _ _ _ _ (n + 1) (by omega) (fun r k hn => iblk0_apply m c ⟨n + 1, h⟩ r k hn)
      (fun r k hn => iblk1_apply m c ⟨n + 1, h⟩ r k hn) (fun k => iblk2_apply m c ⟨n + 1, h⟩ 0 k) p q

/-- The program's result: the mean of the 2097152 row losses. -/
theorem finalVal_eq (c : Dev nD) :
    finalVal m c = meanOf (∑ n : Fin 2097152, rowK (m ((c : Thread nD τ).loc main_arg0))
      (m ((c : Thread nD τ).loc main_arg1)) (m ((c : Thread nD τ).loc main_arg2)) n) := by
  funext i
  have hr : shapeCast S_ (result m c) shapeCasts_S1x1_S_ i
      = ∑ n : Fin 2097152, rowK (m ((c : Thread nD τ).loc main_arg0)) (m ((c : Thread nD τ).loc main_arg1))
          (m ((c : Thread nD τ).loc main_arg2)) n := by
    refine (shapeCast_apply (result m c) shapeCasts_S1x1_S_ i (ix2 (0 : Fin 1) (0 : Fin 1)) ?_).trans ?_
    · have h1 : (S_.rowMajor i).val < 1 := lt_of_lt_of_eq (S_.rowMajor i).isLt (by decide)
      have h2 : (S1x1.rowMajor (ix2 (0 : Fin 1) (0 : Fin 1))).val < 1 := lt_of_lt_of_eq (S1x1.rowMajor _).isLt (by decide)
      show (S1x1.rowMajor (ix2 (0 : Fin 1) (0 : Fin 1))).val = (S_.rowMajor i).val
      omega
    · exact (total_apply m c (126 + 1) tLast.isLt 0 0).trans (sum_rows_blocks _)
  unfold finalVal meanOf
  show Ideal.div (shapeCast S_ (result m c) shapeCasts_S1x1_S_ i) _ = _
  rw [hr]
  rfl

/-- The kernel's run, read: the result at the mean row loss of the arguments, the arguments unchanged. -/
theorem run : θ_run defs (onTc (τ := τ) (main (F := Ideal))) ⟨m, fun _ => 0, ρ⟩ fun r => ∀ c : Dev nD,
      r.2.mem ((c : Thread nD τ).loc main_v3) = meanOf (∑ n : Fin 2097152, rowK (m ((c : Thread nD τ).loc main_arg0))
        (m ((c : Thread nD τ).loc main_arg1)) (m ((c : Thread nD τ).loc main_arg2)) n)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans ((tail_eq m c).trans (finalVal_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Xent

end
-- ==== Proof.RefValue.lean ====
/-
  The reference's result at the ideal values, as a function of the three argument arrays.

  The reference takes the log-softmax of every row (the row's largest logit `M` subtracted, then the logarithm of the
  sum of the exponentials subtracted), multiplies it by the labels times the weights, sums each row, negates, sums the
  2097152 rows and divides by the number of rows. Read one operation at a time at an index, row `n`'s term is
  `-∑ₖ tₖ wₖ ((xₖ - M) - log ∑ₖ exp (xₖ - M))`: the row's loss in its log-softmax form. The initial values of the sums
  are zero, and the extra `max` with minus infinity changes nothing: the fold already starts from it.
-/
import proofs.«145320_j52261162058056_2_alg».proof.Proof.RefRead
import proofs.«145320_j52261162058056_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic
open Idealize.ShloMosaic.ValueIdx Cert.Xent

variable (x0 x1 : FVec Ideal S2097152x32 .f32) (x2 : FVec Ideal S32 .f32)

/-- The indices of a rank-one shape are its one coordinate. -/
def ix1Equiv (n : Nat) : Fin n ≃ (⟨1, ![n]⟩ : Shape).Idx where
  toFun := ix1
  invFun j := j 0
  left_inv _ := rfl
  right_inv j := (eq_ix1 j).symm

theorem idx34 (n : Fin 2097152) (k : Fin 32) : idx_main_call0_v3 (idx_main_call0_v4 (ix2 n k)) = ix1 n := by
  funext a; match a with | ⟨0, _⟩ => rfl
theorem idx810 (n : Fin 2097152) (k : Fin 32) : idx_main_call0_v8 (idx_main_call0_v10 (ix2 n k)) = ix1 n := by
  funext a; match a with | ⟨0, _⟩ => rfl
theorem idx7 (n : Fin 2097152) (k : Fin 32) : idx_main_call0_v7 (ix1 n) k = ix2 n k := by
  funext a; match a with | ⟨0, _⟩ => rfl | ⟨1, _⟩ => rfl
theorem idx5 (n : Fin 2097152) (k : Fin 32) : idx_main_v5 (ix1 n) k = ix2 n k := by
  funext a; match a with | ⟨0, _⟩ => rfl | ⟨1, _⟩ => rfl
theorem idx12 (n : Fin 2097152) (k : Fin 32) : idx_main_v1 (idx_main_v2 (ix2 n k)) = ix1 k := by
  funext a; match a with | ⟨0, _⟩ => rfl

/-- The row's largest logit, as the reference takes it. -/
theorem max_apply (n : Fin 2097152) :
    val_main_call0_v2 (F := Ideal) x0 (ix1 n) = rowMax (Ideal.ofBits .f32 0xFF800000#32) (fun k : Fin 32 => x0 (ix2 n k)) := by
  rw [val_main_call0_v2_apply, val_main_call0_v1_apply]
  unfold val_main_call0_v0
  rw [Host.reduce_eq_fold_single FloatOps.maximumf x0 _ reducesTo_S2097152x32_S2097152_d1 (by decide) h_S_ (ix1 n)]
  have hf : (Finset.univ : Finset (Fin 32)).fold FloatOps.maximumf (Ideal.ofBits .f32 0xFF800000#32)
      (x0 ∘ (by decide : S2097152x32.Reduces [1] S2097152).lift (ix1 n))
      = rowMax (Ideal.ofBits .f32 0xFF800000#32) (fun k : Fin 32 => x0 (ix2 n k)) := by
    unfold rowMax
    refine congrArg (fun f : Fin 32 → EReal => (Finset.univ : Finset (Fin 32)).fold max (Ideal.ofBits .f32 0xFF800000#32) f) ?_
    funext k
    refine congrArg x0 ?_
    funext a
    apply Fin.ext
    match a with
    | ⟨0, _⟩ => rfl
    | ⟨1, _⟩ => rfl
  refine Eq.trans ?_ hf
  refine max_eq_right ?_
  exact (Finset.le_fold_max _).2 (Or.inl le_rfl)

/-- A shifted logit. -/
theorem shifted_apply (n : Fin 2097152) (k : Fin 32) :
    val_main_call0_v5 (F := Ideal) x0 (ix2 n k)
      = x0 (ix2 n k) - rowMax (Ideal.ofBits .f32 0xFF800000#32) (fun k : Fin 32 => x0 (ix2 n k)) := by
  rw [val_main_call0_v5_apply, val_main_call0_v4_apply, val_main_call0_v3_apply, idx34, max_apply]
  rfl

/-- The logarithm of the row's sum of exponentials. -/
theorem lse_apply (n : Fin 2097152) (k : Fin 32) :
    val_main_call0_v10 (F := Ideal) x0 (ix2 n k)
      = lse (rowMax (Ideal.ofBits .f32 0xFF800000#32) (fun k : Fin 32 => x0 (ix2 n k))) (fun k : Fin 32 => x0 (ix2 n k)) := by
  rw [val_main_call0_v10_apply, val_main_call0_v9_apply, val_main_call0_v8_apply, idx810, val_main_call0_v7_apply]
  unfold lse
  show Ideal.log (Ideal.ofBits .f32 0x00000000#32 + _) = _
  rw [Ideal.ofBits_zero_f32, zero_add]
  refine congrArg Ideal.log (Finset.sum_congr rfl fun j _ => ?_)
  rw [idx7, val_main_call0_v6_apply, shifted_apply]
  rfl

/-- Row `n`'s term: the row's loss in its log-softmax form. -/
theorem row_apply (n : Fin 2097152) : val_main_v6 (F := Ideal) x0 x1 x2 (ix1 n) = rowR x0 x1 x2 n := by
  rw [val_main_v6_apply, val_main_v5_apply]
  unfold rowR rowLossR
  show -(Ideal.ofBits .f32 0x00000000#32 + _) = _
  rw [Ideal.ofBits_zero_f32, zero_add]
  refine congrArg Neg.neg (Finset.sum_congr rfl fun k _ => ?_)
  rw [idx5, val_main_v4_apply, val_main_v3_apply, val_main_v2_apply, val_main_v1_apply, idx12, val_main_v0_apply,
    shifted_apply, lse_apply]
  rfl

/-- The reference's result: the mean of the 2097152 row losses. -/
theorem result_eq : val_main_v8 (F := Ideal) x0 x1 x2 = meanOf (∑ n : Fin 2097152, rowR x0 x1 x2 n) := by
  funext i
  rw [val_main_v8_apply, val_main_v7_apply]
  unfold meanOf
  show Ideal.div (Ideal.ofBits .f32 0x00000000#32 + _) _ = _
  rw [Ideal.ofBits_zero_f32, zero_add]
  refine congrArg (fun s : EReal => Ideal.div s (Ideal.ofBits .f32 0x4A000000#32)) ?_
  refine (Fintype.sum_equiv (ix1Equiv 2097152) (fun n => val_main_v6 (F := Ideal) x0 x1 x2 (ix1 n)) _ (fun _ => rfl)).symm.trans ?_
  exact Finset.sum_congr rfl fun n _ => row_apply x0 x1 x2 n

end Cert.ReferenceIdeal.RefValue

end
-- ==== Proof.Finite.lean ====
/-
  What the precondition says: every entry of the three argument arrays is a real number.

  The precondition is three `all (|x| < +∞)` tests joined by `and`. A conjunction of one-bit words is 1 only if both are;
  an `all` that is 1 had a 1 at every index; and an extended real whose absolute value is below the top is neither the
  top nor the bottom, so it is (the image of) a real.
-/
import proofs.«145320_j52261162058056_2_alg».proof.Pre_finite_inputs
import proofs.«145320_j52261162058056_2_alg».proof.Proof.Gen.Pre_finite_inputs
import proofs.«145320_j52261162058056_2_alg».proof.Proof.RowAlgebra
import Idealize.ShloMosaic.Lib.ReduceAll
import Idealize.ShloMosaic.Lib.ValueIdx

noncomputable section

namespace Cert.Xent

open Idealize.ShloMosaic Cert.Pre_finite_inputs Cert.Pre_finite_inputs.Gen

instance : Subsingleton Cert.Pre_finite_inputs.S_.Idx := ⟨fun a b => funext fun d => d.elim0⟩

/-- An extended real whose absolute value is strictly below plus infinity is a real. -/
theorem real_of_abs_lt (x : EReal) (h : Ideal.cmp .olt (max x (-x)) (Ideal.ofBits .f32 0x7F800000#32) = 1#1) :
    ∃ r : ℝ, x = (r : EReal) := by
  rw [ofBits_pos_inf] at h
  have hlt : max x (-x) < ⊤ := by
    by_contra hn
    simp [Ideal.cmp, hn] at h
  induction x using EReal.rec with
  | bot => simp at hlt
  | top => simp at hlt
  | coe r => exact ⟨r, rfl⟩

/-- One `all (|x| < +∞)` test that is 1 makes every entry of its array a real. -/
theorem real_of_all {s : Shape} {axes : List (Fin s.rank)} (x : FVec Ideal s .f32) (bnd : FVec Ideal s .f32)
    (hb : ∀ i, bnd i = Ideal.ofBits .f32 0x7F800000#32) (init : S_.Idx → BitVec 1) (hr : s.ReducesTo axes S_)
    (hu : 0 < S_.numel) (j : S_.Idx)
    (e : Host.reduce IntOp.andi (cmpf .olt (Host.absf x) bnd) init hr hu j = 1#1) (i : s.Idx) :
    ∃ r : ℝ, x i = (r : EReal) := by
  have h1 := Host.reduce_andi_all (cmpf .olt (Host.absf x) bnd) init hr hu j e i
  refine real_of_abs_lt (x i) ?_
  rw [← hb i]
  exact h1

/-- Under the precondition every entry of the logits, of the labels and of the weights is a real. -/
theorem finite_of_pre (X T : FVec Ideal S2097152x32 .f32) (W : FVec Ideal S32 .f32)
    (h : Cert.Pre_finite_inputs.fn (F := Ideal) X T W = fun _ => 1#1) :
    (∀ i, ∃ r : ℝ, X i = (r : EReal)) ∧ (∀ i, ∃ r : ℝ, T i = (r : EReal)) ∧ (∀ i, ∃ r : ℝ, W i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun i => real_of_all X _ (fun _ => rfl) _ _ _ _ h1 i, fun i => real_of_all T _ (fun _ => rfl) _ _ _ _ h2 i,
    fun i => real_of_all W _ (fun _ => rfl) _ _ _ _ h3 i⟩

end Cert.Xent

end
-- ==== Proof.lean ====
/-
  A mean soft-label cross entropy over 2097152 rows of 32 classes: a kernel that walks the rows in 128 blocks of 16384,
  adding each block's loss to a running total, against the plain log-softmax formula.

  Per row, with `M` the row's largest logit and `lse = log ∑ₖ exp (xₖ - M)`, the kernel forms
  `(M + lse) · ∑ₖ tₖ wₖ - ∑ₖ tₖ wₖ xₖ` and the reference `-∑ₖ tₖ wₖ ((xₖ - M) - lse)`. On the extended reals the two agree
  when every entry is a real number — the second is the first with a product distributed over a sum, which fails at the
  infinities — and that is what the precondition provides (Proof/Finite.lean, Proof/RowAlgebra.lean, Proof/Spec.lean).
  Both programs then sum the row losses — the kernel block by block across its grid, the reference in one reduction —
  which is one sum since addition of extended reals is commutative and associative, and both divide by the same constant.

  The kernel's value is read off its frame run: what the scratch holds after every grid point (Proof/Pieces.lean,
  Proof/Total.lean), the body's arithmetic at an index (Proof/Payload.lean), the blocks as rows of the argument arrays
  and the lines after the kernel (Proof/KernelValue.lean). The reference's value is read one operation at a time
  (Proof/RefValue.lean). The idealization rewrote nothing, so `preserves` is trivial.
-/
import proofs.«145320_j52261162058056_2_alg».proof.Defs
import proofs.«145320_j52261162058056_2_alg».proof.Proof.Gen.Kernel
import proofs.«145320_j52261162058056_2_alg».proof.Proof.Gen.Kernel.Skeleton
import proofs.«145320_j52261162058056_2_alg».proof.Proof.Gen.Kernel.Launch
import proofs.«145320_j52261162058056_2_alg».proof.Proof.Gen.Kernel.Points
import proofs.«145320_j52261162058056_2_alg».proof.Proof.Gen.Kernel.Frame
import proofs.«145320_j52261162058056_2_alg».proof.Proof.Gen.KernelIdeal
import proofs.«145320_j52261162058056_2_alg».proof.Proof.Gen.KernelIdeal.Skeleton
import proofs.«145320_j52261162058056_2_alg».proof.Proof.Gen.KernelIdeal.Launch
import proofs.«145320_j52261162058056_2_alg».proof.Proof.Gen.KernelIdeal.Points
import proofs.«145320_j52261162058056_2_alg».proof.Proof.Gen.KernelIdeal.Frame
import proofs.«145320_j52261162058056_2_alg».proof.Proof.Gen.ReferenceIdeal
import proofs.«145320_j52261162058056_2_alg».proof.Proof.Gen.Pre_finite_inputs
import proofs.«145320_j52261162058056_2_alg».proof.Proof.KernelValue
import proofs.«145320_j52261162058056_2_alg».proof.Proof.RefValue
import proofs.«145320_j52261162058056_2_alg».proof.Proof.Finite
import Idealize.ShloMosaic.Adequacy
import Idealize.ShloMosaic.Init

noncomputable section

namespace Cert.Proof

open Idealize.ShloMosaic Idealize.ShloMosaic.TcCoe Idealize.SL.Sem Cert.Xent

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization is the kernel's own text read at the ideal values. -/
theorem preserves : Cert.preserves_Kernel_KernelIdeal := trivial

/-- Both programs end at the mean of the row losses of arguments that agree: the kernel with each row's loss in its
    logsumexp form, the reference in its log-softmax form, equal on the real entries the precondition gives. -/
theorem algebraic : Cert.algebraic_KernelIdeal_ReferenceIdeal := by
  intro m ρ m' ρ' hpre hagree
  refine ⟨_, Cert.KernelIdeal.Xent.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v8_eq, Cert.ReferenceIdeal.RefValue.result_eq, (hagree c).1, (hagree c).2.1,
    (hagree c).2.2]
  obtain ⟨hX, hT, hW⟩ := finite_of_pre _ _ _ (hpre c)
  exact congrArg meanOf (Finset.sum_congr rfl fun n _ => (rowK_eq_rowR _ _ _ hX hT hW n).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
